-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v13 : IVec S_ 1) (main_v16 : IVec S1x2048x2048 1) : IVec S_ 1 :=
  let main_c_5 : IVec S_ 1 := constantI S_ 1 1#1
  let main_v17 : IVec S_ 1 := (fun x v => Host.reduce IntOp.andi x v reducesTo_S1x2048x2048_S_d0_1_2 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S4096x2048 .f32) (main_arg1 : FVec F S2048x2048 .f32) (main_arg2 : FVec F S1x2048x2048 .f32) (main_arg3 : FVec F S1x2048x2048 .f32) (main_arg4 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1x2048x2048 .f32 := Host.absf main_arg3
  let main_cst_4 : FVec F S_ .f32 := constant S_ .f32 0x7F800000#32
  let main_v15 : FVec F S1x2048x2048 .f32 := broadcastInDim S1x2048x2048 ![] bcast_S_S1x2048x2048 main_cst_4
  let main_v16 : IVec S1x2048x2048 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048 : Shape := ⟨2, ![1, 2048]⟩
abbrev S512x2048 : Shape := ⟨2, ![512, 2048]⟩
abbrev S512x512 : Shape := ⟨2, ![512, 512]⟩
abbrev S1x512 : Shape := ⟨2, ![1, 512]⟩

abbrev nBuf : Space → Nat
  | .hbm => 8
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c512_i32 : BitVec 32 := 512#32
  let v8 : BitVec 32 := Scalar.muli arg2 c512_i32
  v8
def k0_off1 (i : grid0.Coords) : Fin 2 → Nat :=
  let c0 : Index := 0#32
  let arg2 : BitVec 32 := BitVec.ofNat 32 (i 2).val
  let c512_i32 : BitVec 32 := 512#32
  let v8 : BitVec 32 := Scalar.muli arg2 c512_i32
  let v9 : BitVec 32 := v8
  let v10 : Index := Scalar.indexCast v9
  ![0, v10.toNat]
def k0_cond3 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S1x2048x2048_S2048x2048 : S1x2048x2048.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x2048_S512x512_0_0 : ∀ a, (![0, 0] : Fin 2 → Nat) a + S512x512.size a ≤ S512x2048.size a
  h_S512x512 : 0 < S512x512.numel
  bitsLt_bf16_f32 : FTy.bits .bf16 < FTy.bits .f32
  inb_S2048x2048_S512x2048_0_0 : ∀ a, (![0, 0] : Fin 2 → Nat) a + S512x2048.size a ≤ S2048x2048.size a
  inb_S512x2048_S512x512_0_512 : ∀ a, (![0, 512] : Fin 2 → Nat) a + S512x512.size a ≤ S512x2048.size a
  inb_S2048x2048_S512x2048_512_0 : ∀ a, (![512, 0] : Fin 2 → Nat) a + S512x2048.size a ≤ S2048x2048.size a
  inb_S512x2048_S512x512_0_1024 : ∀ a, (![0, 1024] : Fin 2 → Nat) a + S512x512.size a ≤ S512x2048.size a
  inb_S2048x2048_S512x2048_1024_0 : ∀ a, (![1024, 0] : Fin 2 → Nat) a + S512x2048.size a ≤ S2048x2048.size a
  inb_S512x2048_S512x512_0_1536 : ∀ a, (![0, 1536] : Fin 2 → Nat) a + S512x512.size a ≤ S512x2048.size a
  inb_S2048x2048_S512x2048_1536_0 : ∀ a, (![1536, 0] : Fin 2 → Nat) a + S512x2048.size a ≤ S2048x2048.size a
  packedbf16_S512x2048_S512x2048_0_0 : (Rect.unit (s := S512x2048) ![0, 0] S512x2048.size inb_S512x2048_S512x2048_0_0).PackedRows (EltTy.packing .bf16)
  inb_S512x512_S512x512_0_0 : ∀ a, (![0, 0] : Fin 2 → Nat) a + S512x512.size a ≤ S512x512.size a
  shapeCasts_S512x512_S512x512 : S512x512.ShapeCasts S512x512
  inb_S1x512_S1x512_0_0 : ∀ a, (![0, 0] : Fin 2 → Nat) a + S1x512.size a ≤ S1x512.size a
  h_S1x512 : 0 < S1x512.numel
  broadcasts_S1x512_S512x512 : S1x512.Broadcasts S512x512
  dot_S512x512_S512x2048_S512x2048_1_0_0_1_n_n_wf : DotDims.WF S512x512 S512x2048 S512x2048 [1] [0] [0] [1] [] []
  dot_S512x512_S512x512_S512x512_1_1_0_0_n_n_wf : DotDims.WF S512x512 S512x512 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x512.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x2048.size a
  hwx0_5 : ∀ i : grid0.Coords, EltTy.bits .f32 = 32 ∨ (Rect.block (s := S4096x2048) S512x512.size (cc0_transform_5 i) (hinb0_5 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048 : Shape := ⟨2, ![1, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S4096x2048, .f32⟩
  | .hbm, ⟨17, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  shapeCasts_S1x2048x2048_S2048x2048 : S1x2048x2048.ShapeCasts S2048x2048
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []
  dot_S4096x2048_S2048x2048_S4096x2048_1_1_0_0_n_n_wf : DotDims.WF S4096x2048 S2048x2048 S4096x2048 [1] [1] [0] [0] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.Body.lean ====
/-
  What one run of the kernel body leaves in its carried scratch and in the output block, as pure terms of the
  blocks it loads.  The body at a grid point (i, j, h):
    * when j = 0 and h = 0 it forms the phase block  phase = 0 + ∑ over the four k-tiles of  x-tile · coeff-tile,
      and stores its cosine and its sine;
    * when h = 0 it zeroes the gain block;
    * it adds to the gain block  cos-slice · anᵀ  and then  sin-slice · bnᵀ,  the slices the columns of h-tile h;
    * when h = 3 it stores  gain + 2048 · bias  into the output block.
  Each lemma reads the stores the run made back as the term below, whatever the float instance.
-/
import proofs.«166430_j84696755077155_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-! ## The body's terms -/

/-- The phase block after the four k-tile steps: each step adds the product of the x block's columns
    `512a … 512a + 511` with the coefficient rows `512a … 512a + 511` to what the step before left, from zero. -/
def phaseAcc (x0 : Vec F S512x2048 .f32) (x1 : Vec F S2048x2048 .f32) : FVec F S512x2048 .f32 :=
  k0_pay8 (View.ld x0 (Rect.unit (s := S512x2048) ![0, 1536] S512x512.size Facts₀.inb_S512x2048_S512x512_0_1536))
    (View.ld x1 (Rect.unit (s := S2048x2048) ![1536, 0] S512x2048.size Facts₀.inb_S2048x2048_S512x2048_1536_0))
    (k0_pay7 (k0_pay5 (View.ld x0 (Rect.unit (s := S512x2048) ![0, 1024] S512x512.size Facts₀.inb_S512x2048_S512x512_0_1024)))
      (k0_pay6 (View.ld x1 (Rect.unit (s := S2048x2048) ![1024, 0] S512x2048.size Facts₀.inb_S2048x2048_S512x2048_1024_0)))
      (k0_pay4 (View.ld x0 (Rect.unit (s := S512x2048) ![0, 512] S512x512.size Facts₀.inb_S512x2048_S512x512_0_512))
        (View.ld x1 (Rect.unit (s := S2048x2048) ![512, 0] S512x2048.size Facts₀.inb_S2048x2048_S512x2048_512_0))
        (k0_pay3 (View.ld x0 (Rect.unit (s := S512x2048) ![0, 0] S512x512.size Facts₀.inb_S512x2048_S512x512_0_0))
          (View.ld x1 (Rect.unit (s := S2048x2048) ![0, 0] S512x2048.size Facts₀.inb_S2048x2048_S512x2048_0_0))
          k0_pay2))
      (constant S512x2048 .f32 0x00000000#32))

/-- The cosine scratch: the cosine of the phase block. -/
def cosScr (x0 : Vec F S512x2048 .f32) (x1 : Vec F S2048x2048 .f32) : FVec F S512x2048 .bf16 := k0_pay9 (phaseAcc x0 x1)

/-- The sine scratch: the sine of the phase block. -/
def sinScr (x0 : Vec F S512x2048 .f32) (x1 : Vec F S2048x2048 .f32) : FVec F S512x2048 .bf16 := k0_pay10 (phaseAcc x0 x1)

/-- One gain step at grid coordinates `i`: to `acc` add the cosine scratch's h-tile slice times the an block
    transposed, then the sine scratch's slice times the bn block transposed. -/
def gainStep (i : grid0.Coords) (xs0 xs1 : Vec F S512x2048 .bf16) (x2 x3 : Vec F S512x512 .f32) (acc : Vec F S512x512 .f32) :
    FVec F S512x512 .f32 :=
  k0_pay13 (View.ld xs1 (Rect.unit (s := S512x2048) (k0_off1 i) S512x512.size (Facts₀.k0_off1_inb i))) x3
    (k0_pay12 (View.ld xs0 (Rect.unit (s := S512x2048) (k0_off1 i) S512x512.size (Facts₀.k0_off1_inb i))) x2 acc)

/-! ## The found pieces, read back -/

/-- At a first point of a row of blocks (j = 0, h = 0) the cosine scratch is left at the cosine of the phase block. -/
theorem cos_A (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : cond0_0 i) (hc1 : cond0_1 i) (hc2 : ¬cond0_2 i)
    (x0 : Vec F S512x2048 .f32) (x1 : Vec F S2048x2048 .f32) (x2 : Vec F S512x512 .f32) (x3 : Vec F S512x512 .f32) (x4 : Vec F S1x512 .f32) :
    sout0_A_0 c i arg3 harg3 arg4 harg4 arg5 harg5 arg6 harg6 arg7 harg7 arg8 harg8 arg9 harg9 arg10 harg10 arg11 harg11 arg12 harg12 hc0 hc1 hc2 x0 x1 x2 x3 x4 = cosScr x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

/-- At such a point the sine scratch is left at the sine of the phase block. -/
theorem sin_A (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : cond0_0 i) (hc1 : cond0_1 i) (hc2 : ¬cond0_2 i)
    (x0 : Vec F S512x2048 .f32) (x1 : Vec F S2048x2048 .f32) (x2 : Vec F S512x512 .f32) (x3 : Vec F S512x512 .f32) (x4 : Vec F S1x512 .f32) :
    sout0_A_1 c i arg3 harg3 arg4 harg4 arg5 harg5 arg6 harg6 arg7 harg7 arg8 harg8 arg9 harg9 arg10 harg10 arg11 harg11 arg12 harg12 hc0 hc1 hc2 x0 x1 x2 x3 x4 = sinScr x0 x1 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

/-- At such a point the gain block is one step from zero, over the scratch just written. -/
theorem gain_A (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : cond0_0 i) (hc1 : cond0_1 i) (hc2 : ¬cond0_2 i)
    (x0 : Vec F S512x2048 .f32) (x1 : Vec F S2048x2048 .f32) (x2 : Vec F S512x512 .f32) (x3 : Vec F S512x512 .f32) (x4 : Vec F S1x512 .f32) :
    sout0_A_3 c i arg3 harg3 arg4 harg4 arg5 harg5 arg6 harg6 arg7 harg7 arg8 harg8 arg9 harg9 arg10 harg10 arg11 harg11 arg12 harg12 hc0 hc1 hc2 x0 x1 x2 x3 x4 = gainStep i (cosScr x0 x1) (sinScr x0 x1) x2 x3 k0_pay11 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

/-- At the first h-tile of a later column block (h = 0, j ≠ 0) the gain block is one step from zero, over the scratch the point before left. -/
theorem gain_D (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : ¬cond0_0 i) (hc1 : cond0_1 i) (hc2 : ¬cond0_2 i)
    (x0 : Vec F S512x2048 .f32) (x1 : Vec F S2048x2048 .f32) (x2 : Vec F S512x512 .f32) (x3 : Vec F S512x512 .f32) (x4 : Vec F S1x512 .f32) (xs0 : Vec F S512x2048 .bf16) (xs1 : Vec F S512x2048 .bf16) :
    sout0_D_3 c i arg3 harg3 arg4 harg4 arg5 harg5 arg6 harg6 arg7 harg7 arg8 harg8 arg9 harg9 arg10 harg10 arg11 harg11 arg12 harg12 hc0 hc1 hc2 x0 x1 x2 x3 x4 xs0 xs1 = gainStep i xs0 xs1 x2 x3 k0_pay11 := by
  unfold sout0_D_3
  rw [View.read_writes_eq_canon _ _ _ (scover0_D_3 c i arg3 harg3 arg4 harg4 arg5 harg5 arg6 harg6 arg7 harg7 arg8 harg8 arg9 harg9 arg10 harg10 arg11 harg11 arg12 harg12 hc0 hc1 hc2 x0 x1 x2 x3 x4 xs0 xs1)]
  unfold kernelRun0_D
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

/-- At a middle h-tile (h = 1, 2) the gain block is one step from what the point before left. -/
theorem gain_B (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : ¬cond0_0 i) (hc1 : ¬cond0_1 i) (hc2 : ¬cond0_2 i)
    (x0 : Vec F S512x2048 .f32) (x1 : Vec F S2048x2048 .f32) (x2 : Vec F S512x512 .f32) (x3 : Vec F S512x512 .f32) (x4 : Vec F S1x512 .f32) (xs0 : Vec F S512x2048 .bf16) (xs1 : Vec F S512x2048 .bf16) (xs3 : Vec F S512x512 .f32) :
    sout0_B_3 c i arg3 harg3 arg4 harg4 arg5 harg5 arg6 harg6 arg7 harg7 arg8 harg8 arg9 harg9 arg10 harg10 arg11 harg11 arg12 harg12 hc0 hc1 hc2 x0 x1 x2 x3 x4 xs0 xs1 xs3 = gainStep i xs0 xs1 x2 x3 xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 hc0 hc1 hc2 x0 x1 x2 x3 x4 xs0 xs1 xs3)]
  unfold kernelRun0_B
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

/-- At the last h-tile (h = 3) the gain block is one step from what the point before left, -/
theorem gain_C (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : ¬cond0_0 i) (hc1 : ¬cond0_1 i) (hc2 : cond0_2 i)
    (x0 : Vec F S512x2048 .f32) (x1 : Vec F S2048x2048 .f32) (x2 : Vec F S512x512 .f32) (x3 : Vec F S512x512 .f32) (x4 : Vec F S1x512 .f32) (xs0 : Vec F S512x2048 .bf16) (xs1 : Vec F S512x2048 .bf16) (xs3 : Vec F S512x512 .f32) :
    sout0_C_3 c i arg3 harg3 arg4 harg4 arg5 harg5 arg6 harg6 arg7 harg7 arg8 harg8 arg9 harg9 arg10 harg10 arg11 harg11 arg12 harg12 hc0 hc1 hc2 x0 x1 x2 x3 x4 xs0 xs1 xs3 = gainStep i xs0 xs1 x2 x3 xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 hc0 hc1 hc2 x0 x1 x2 x3 x4 xs0 xs1 xs3)]
  unfold kernelRun0_C
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

/-- and the output block is that gain block plus the scaled bias row. -/
theorem out_C (c : Dev nD) (i : grid0.Coords) (arg3 : Memref sig .tc .vmem S512x2048 .f32) (harg3 : arg3.IsWhole) (arg4 : Memref sig .tc .vmem S2048x2048 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S512x2048 .f32) (harg11 : arg11.IsWhole) (arg12 : Memref sig .tc .vmem S512x512 .f32) (harg12 : arg12.IsWhole) (hc0 : ¬cond0_0 i) (hc1 : ¬cond0_1 i) (hc2 : cond0_2 i)
    (x0 : Vec F S512x2048 .f32) (x1 : Vec F S2048x2048 .f32) (x2 : Vec F S512x512 .f32) (x3 : Vec F S512x512 .f32) (x4 : Vec F S1x512 .f32) (xs0 : Vec F S512x2048 .bf16) (xs1 : Vec F S512x2048 .bf16) (xs3 : Vec F S512x512 .f32) :
    out0_C_5 c i arg3 harg3 arg4 harg4 arg5 harg5 arg6 harg6 arg7 harg7 arg8 harg8 arg9 harg9 arg10 harg10 arg11 harg11 arg12 harg12 hc0 hc1 hc2 x0 x1 x2 x3 x4 xs0 xs1 xs3 = k0_pay1 (gainStep i xs0 xs1 x2 x3 xs3) x4 := by
  unfold out0_C_5
  rw [View.read_writes_eq_canon _ _ _ (cover0_C_5 c i arg3 harg3 arg4 harg4 arg5 harg5 arg6 harg6 arg7 harg7 arg8 harg8 arg9 harg9 arg10 harg10 arg11 harg11 arg12 harg12 hc0 hc1 hc2 x0 x1 x2 x3 x4 xs0 xs1 xs3)]
  unfold kernelRun0_C
  dsimp only
  sl_unfold_words
  simp only [View.readCov_cons_toLoadRect, View.readAt_eq_ld, View.read_writes_junk_eq_canon, View.canon_unit_zero (S := S512x512) hz, View.canon_unit_zero (S := S512x2048) hz, View.canon_cons_unit_zero (S := S512x512) hz, View.canon_cons_unit_zero (S := S512x2048) hz, harg3.read_unread, harg4.read_unread, harg5.read_unread, harg6.read_unread, harg7.read_unread, harg8.read_unread, harg9.read_unread, harg10.read_unread, harg11.read_unread, harg12.read_unread, View.ld_unit_zero (S := S512x512) hz, View.ld_unit_zero (S := S512x2048) hz, View.ld_unit_zero (S := S1x512) hz]
  rfl

end Cert.KernelIdeal.Body

end
-- ==== Proof.Cases.lean ====
/-
  What the carried scratch and the output block hold after each grid point, case by case, in the body's terms.
  With  t = 16·i + 4·j + h:
    h = 0, j = 0   the cosine and sine scratch are computed from the point's x block and the coefficients, and the
                   gain block is one step from zero;
    h = 0, j ≠ 0   the scratch is what the point before left, the gain block one step from zero;
    h = 1, 2       the scratch is what the point before left, the gain block one step from what it left;
    h = 3          the same, and the output block is the gain block plus the scaled bias row.
-/
import proofs.«166430_j84696755077155_2_alg».proof.Proof.Body

set_option maxRecDepth 16384

noncomputable section

open Idealize.ShloMosaic Idealize.ShloMosaic.TcCoe Idealize.SL.Sem

namespace Cert.KernelIdeal.Cases

open Cert.KernelIdeal Cert.KernelIdeal.Gen Cert.KernelIdeal.Body

variable {F : FTy → Type} [FloatOps F]
variable (m : (ℓ : Loc nD τ sig) → Buf (Elt F) ℓ)

/-! ## h = 0, j = 0 -/

/-- The cosine scratch after such a point. -/
theorem cos_first (c : Dev nD) (t : Fin cfg0.N) (h0 : t.val % 16 = 0) (h1 : t.val % 4 = 0) (h2 : ¬t.val % 4 = 3) :
    (outsAt0 m c t.val t.isLt).2.1 = cosScr (iblk m c 0 t) (iblk m c 1 t) := by
  rw [outsAt0_A m c t h0 h1 h2]
  dsimp only
  exact cos_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)

/-- The sine scratch after such a point. -/
theorem sin_first (c : Dev nD) (t : Fin cfg0.N) (h0 : t.val % 16 = 0) (h1 : t.val % 4 = 0) (h2 : ¬t.val % 4 = 3) :
    (outsAt0 m c t.val t.isLt).2.2.1 = sinScr (iblk m c 0 t) (iblk m c 1 t) := by
  rw [outsAt0_A m c t h0 h1 h2]
  dsimp only
  exact sin_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)

/-- The gain block after such a point. -/
theorem gain_first (c : Dev nD) (t : Fin cfg0.N) (h0 : t.val % 16 = 0) (h1 : t.val % 4 = 0) (h2 : ¬t.val % 4 = 3) :
    (outsAt0 m c t.val t.isLt).2.2.2 = gainStep (grid0.coords t) (cosScr (iblk m c 0 t) (iblk m c 1 t)) (sinScr (iblk m c 0 t) (iblk m c 1 t)) (iblk m c 2 t) (iblk m c 3 t) k0_pay11 := by
  rw [outsAt0_A m c t h0 h1 h2]
  dsimp only
  exact gain_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)

/-! ## h = 0, j ≠ 0 -/

/-- The cosine scratch is kept. -/
theorem cos_reset (c : Dev nD) (t : Fin cfg0.N) (h0 : ¬t.val % 16 = 0) (h1 : t.val % 4 = 0) (h2 : ¬t.val % 4 = 3) :
    (outsAt0 m c t.val t.isLt).2.1 = (outsAt0 m c (t.val - 1) (Nat.lt_of_le_of_lt (Nat.sub_le _ _) t.isLt)).2.1 :=
  (congrArg (fun p => p.2.1) (outsAt0_D m c t h0 h1 h2))

/-- The sine scratch is kept. -/
theorem sin_reset (c : Dev nD) (t : Fin cfg0.N) (h0 : ¬t.val % 16 = 0) (h1 : t.val % 4 = 0) (h2 : ¬t.val % 4 = 3) :
    (outsAt0 m c t.val t.isLt).2.2.1 = (outsAt0 m c (t.val - 1) (Nat.lt_of_le_of_lt (Nat.sub_le _ _) t.isLt)).2.2.1 :=
  (congrArg (fun p => p.2.2.1) (outsAt0_D m c t h0 h1 h2))

/-- The gain block is one step from zero. -/
theorem gain_reset (c : Dev nD) (t : Fin cfg0.N) (h0 : ¬t.val % 16 = 0) (h1 : t.val % 4 = 0) (h2 : ¬t.val % 4 = 3) :
    (outsAt0 m c t.val t.isLt).2.2.2 = gainStep (grid0.coords t) (outsAt0 m c (t.val - 1) (Nat.lt_of_le_of_lt (Nat.sub_le _ _) t.isLt)).2.1 (outsAt0 m c (t.val - 1) (Nat.lt_of_le_of_lt (Nat.sub_le _ _) t.isLt)).2.2.1 (iblk m c 2 t) (iblk m c 3 t) k0_pay11 := by
  rw [outsAt0_D m c t h0 h1 h2]
  dsimp only
  exact gain_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1

/-! ## h = 1, 2 -/

/-- The cosine scratch is kept. -/
theorem cos_mid (c : Dev nD) (t : Fin cfg0.N) (h0 : ¬t.val % 16 = 0) (h1 : ¬t.val % 4 = 0) (h2 : ¬t.val % 4 = 3) :
    (outsAt0 m c t.val t.isLt).2.1 = (outsAt0 m c (t.val - 1) (Nat.lt_of_le_of_lt (Nat.sub_le _ _) t.isLt)).2.1 :=
  (congrArg (fun p => p.2.1) (outsAt0_B m c t h0 h1 h2))

/-- The sine scratch is kept. -/
theorem sin_mid (c : Dev nD) (t : Fin cfg0.N) (h0 : ¬t.val % 16 = 0) (h1 : ¬t.val % 4 = 0) (h2 : ¬t.val % 4 = 3) :
    (outsAt0 m c t.val t.isLt).2.2.1 = (outsAt0 m c (t.val - 1) (Nat.lt_of_le_of_lt (Nat.sub_le _ _) t.isLt)).2.2.1 :=
  (congrArg (fun p => p.2.2.1) (outsAt0_B m c t h0 h1 h2))

/-- The gain block is one step from what the point before left. -/
theorem gain_mid (c : Dev nD) (t : Fin cfg0.N) (h0 : ¬t.val % 16 = 0) (h1 : ¬t.val % 4 = 0) (h2 : ¬t.val % 4 = 3) :
    (outsAt0 m c t.val t.isLt).2.2.2 = gainStep (grid0.coords t) (outsAt0 m c (t.val - 1) (Nat.lt_of_le_of_lt (Nat.sub_le _ _) t.isLt)).2.1 (outsAt0 m c (t.val - 1) (Nat.lt_of_le_of_lt (Nat.sub_le _ _) t.isLt)).2.2.1 (iblk m c 2 t) (iblk m c 3 t) (outsAt0 m c (t.val - 1) (Nat.lt_of_le_of_lt (Nat.sub_le _ _) t.isLt)).2.2.2 := by
  rw [outsAt0_B m c t h0 h1 h2]
  dsimp only
  exact gain_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## h = 3 -/

/-- The cosine scratch is kept. -/
theorem cos_last (c : Dev nD) (t : Fin cfg0.N) (h0 : ¬t.val % 16 = 0) (h1 : ¬t.val % 4 = 0) (h2 : t.val % 4 = 3) :
    (outsAt0 m c t.val t.isLt).2.1 = (outsAt0 m c (t.val - 1) (Nat.lt_of_le_of_lt (Nat.sub_le _ _) t.isLt)).2.1 :=
  (congrArg (fun p => p.2.1) (outsAt0_C m c t h0 h1 h2))

/-- The sine scratch is kept. -/
theorem sin_last (c : Dev nD) (t : Fin cfg0.N) (h0 : ¬t.val % 16 = 0) (h1 : ¬t.val % 4 = 0) (h2 : t.val % 4 = 3) :
    (outsAt0 m c t.val t.isLt).2.2.1 = (outsAt0 m c (t.val - 1) (Nat.lt_of_le_of_lt (Nat.sub_le _ _) t.isLt)).2.2.1 :=
  (congrArg (fun p => p.2.2.1) (outsAt0_C m c t h0 h1 h2))

/-- The gain block is one step from what the point before left, -/
theorem gain_last (c : Dev nD) (t : Fin cfg0.N) (h0 : ¬t.val % 16 = 0) (h1 : ¬t.val % 4 = 0) (h2 : t.val % 4 = 3) :
    (outsAt0 m c t.val t.isLt).2.2.2 = gainStep (grid0.coords t) (outsAt0 m c (t.val - 1) (Nat.lt_of_le_of_lt (Nat.sub_le _ _) t.isLt)).2.1 (outsAt0 m c (t.val - 1) (Nat.lt_of_le_of_lt (Nat.sub_le _ _) t.isLt)).2.2.1 (iblk m c 2 t) (iblk m c 3 t) (outsAt0 m c (t.val - 1) (Nat.lt_of_le_of_lt (Nat.sub_le _ _) t.isLt)).2.2.2 := by
  rw [outsAt0_C m c t h0 h1 h2]
  dsimp only
  exact gain_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- and the output block is that gain block plus the scaled bias row. -/
theorem out_last (c : Dev nD) (t : Fin cfg0.N) (h0 : ¬t.val % 16 = 0) (h1 : ¬t.val % 4 = 0) (h2 : t.val % 4 = 3) :
    (outsAt0 m c t.val t.isLt).1 = k0_pay1 (gainStep (grid0.coords t) (outsAt0 m c (t.val - 1) (Nat.lt_of_le_of_lt (Nat.sub_le _ _) t.isLt)).2.1 (outsAt0 m c (t.val - 1) (Nat.lt_of_le_of_lt (Nat.sub_le _ _) t.isLt)).2.2.1 (iblk m c 2 t) (iblk m c 3 t) (outsAt0 m c (t.val - 1) (Nat.lt_of_le_of_lt (Nat.sub_le _ _) t.isLt)).2.2.2) (iblk m c 4 t) := by
  rw [outsAt0_C m c t h0 h1 h2]
  dsimp only
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Cases

end
-- ==== Proof.Dots.lean ====
/-
  Two facts about the kernel's vector operations on the extended reals.  A load through a unit-stride rectangle
  at offsets (o₀, o₁), read at (p, q), is the contents at (o₀ + p, o₁ + q).  A matrix product into the zero
  block is the plain sum over its 512-term contraction: the k-tile product contracts the left operand's columns
  with the right operand's rows, the gain product contracts the columns of both.
-/
import proofs.«166430_j84696755077155_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Dots

open Cert.KernelIdeal

/-! ## Loads -/

/-- A load through a unit-stride rectangle read at `(p, q)` reads the contents at the offsets plus `(p, q)`. -/
theorem ld_unit_ix2 {n0 n1 m0 m1 : Nat} {e : EltTy} (X : (⟨2, ![n0, n1]⟩ : Shape).Idx → Elt Ideal e) (off : Fin 2 → Nat)
    (inb : ∀ a, off a + (![m0, m1] : Fin 2 → Nat) a ≤ (⟨2, ![n0, n1]⟩ : Shape).size a)
    (p : Fin m0) (q : Fin m1) (P : Fin n0) (Q : Fin n1) (hP : P.val = off 0 + p.val) (hQ : Q.val = off 1 + q.val) :
    View.ld X (Rect.unit (s := ⟨2, ![n0, n1]⟩) off ![m0, m1] inb) (ix2 p q) = X (ix2 P Q) := by
  show X _ = X _
  refine congrArg X (funext fun d => Fin.ext ?_)
  match d with
  | ⟨0, _⟩ => show off 0 + 1 * p.val = P.val; omega
  | ⟨1, _⟩ => show off 1 + 1 * q.val = Q.val; omega

/-! ## The two matrix products -/

theorem d1_lhs0 (j : S512x2048.Idx) (q : dot_S512x512_S512x2048_S512x2048_1_0_0_1_n_n.contr.Idx) : (dot_S512x512_S512x2048_S512x2048_1_0_0_1_n_n.lhsIdx j q 0).val = (j 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem d1_lhs1 (j : S512x2048.Idx) (q : dot_S512x512_S512x2048_S512x2048_1_0_0_1_n_n.contr.Idx) : (dot_S512x512_S512x2048_S512x2048_1_0_0_1_n_n.lhsIdx j q 1).val = (q ⟨0, by decide⟩).val :=
  dot_S512x512_S512x2048_S512x2048_1_0_0_1_n_n.lhsIdx_val_of_single rfl j q
theorem d1_rhs0 (j : S512x2048.Idx) (q : dot_S512x512_S512x2048_S512x2048_1_0_0_1_n_n.contr.Idx) : (dot_S512x512_S512x2048_S512x2048_1_0_0_1_n_n.rhsIdx j q 0).val = (q ⟨0, by decide⟩).val :=
  dot_S512x512_S512x2048_S512x2048_1_0_0_1_n_n.rhsIdx_val_of_single rfl j q
theorem d1_rhs1 (j : S512x2048.Idx) (q : dot_S512x512_S512x2048_S512x2048_1_0_0_1_n_n.contr.Idx) : (dot_S512x512_S512x2048_S512x2048_1_0_0_1_n_n.rhsIdx j q 1).val = (j 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The k-tile product into the zero block at `(r, h)`: `∑ l, a (r, l) · b (l, h)`. -/
theorem phaseDot_apply (A : FVec Ideal S512x512 .bf16) (B : FVec Ideal S512x2048 .bf16) (r : Fin 512) (h : Fin 2048) :
    matmul dot_S512x512_S512x2048_S512x2048_1_0_0_1_n_n none A B (constant S512x2048 .f32 0x00000000#32) (ix2 r h) = ∑ l : Fin 512, A (ix2 r l) * B (ix2 l h) := by
  simp only [matmul]
  rw [Ideal.matmul_constant_zero_apply, ← Equiv.sum_comp (contrEquiv1 dot_S512x512_S512x2048_S512x2048_1_0_0_1_n_n 512 rfl rfl).symm]
  refine Finset.sum_congr rfl fun l _ => ?_
  have hk := contrEquiv1_symm_val dot_S512x512_S512x2048_S512x2048_1_0_0_1_n_n 512 rfl rfl l
  have el : dot_S512x512_S512x2048_S512x2048_1_0_0_1_n_n.lhsIdx (ix2 r h) ((contrEquiv1 dot_S512x512_S512x2048_S512x2048_1_0_0_1_n_n 512 rfl rfl).symm l) = ix2 r l := funext fun a => Fin.ext (by
    match a with
    | ⟨0, _⟩ => exact d1_lhs0 _ _
    | ⟨1, _⟩ => exact (d1_lhs1 _ _).trans hk)
  have er : dot_S512x512_S512x2048_S512x2048_1_0_0_1_n_n.rhsIdx (ix2 r h) ((contrEquiv1 dot_S512x512_S512x2048_S512x2048_1_0_0_1_n_n 512 rfl rfl).symm l) = ix2 l h := funext fun a => Fin.ext (by
    match a with
    | ⟨0, _⟩ => exact (d1_rhs0 _ _).trans hk
    | ⟨1, _⟩ => exact d1_rhs1 _ _)
  rw [el, er]

theorem d2_lhs0 (j : S512x512.Idx) (q : dot_S512x512_S512x512_S512x512_1_1_0_0_n_n.contr.Idx) : (dot_S512x512_S512x512_S512x512_1_1_0_0_n_n.lhsIdx j q 0).val = (j 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem d2_lhs1 (j : S512x512.Idx) (q : dot_S512x512_S512x512_S512x512_1_1_0_0_n_n.contr.Idx) : (dot_S512x512_S512x512_S512x512_1_1_0_0_n_n.lhsIdx j q 1).val = (q ⟨0, by decide⟩).val :=
  dot_S512x512_S512x512_S512x512_1_1_0_0_n_n.lhsIdx_val_of_single rfl j q
theorem d2_rhs0 (j : S512x512.Idx) (q : dot_S512x512_S512x512_S512x512_1_1_0_0_n_n.contr.Idx) : (dot_S512x512_S512x512_S512x512_1_1_0_0_n_n.rhsIdx j q 0).val = (j 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem d2_rhs1 (j : S512x512.Idx) (q : dot_S512x512_S512x512_S512x512_1_1_0_0_n_n.contr.Idx) : (dot_S512x512_S512x512_S512x512_1_1_0_0_n_n.rhsIdx j q 1).val = (q ⟨0, by decide⟩).val :=
  dot_S512x512_S512x512_S512x512_1_1_0_0_n_n.rhsIdx_val_of_single rfl j q

/-- The gain product (both operands contracted along their columns) into the zero block at `(r, q)`:
    `∑ l, a (r, l) · b (q, l)`. -/
theorem gainDot_apply (A : FVec Ideal S512x512 .bf16) (B : FVec Ideal S512x512 .bf16) (r q : Fin 512) :
    matmul dot_S512x512_S512x512_S512x512_1_1_0_0_n_n none A B (constant S512x512 .f32 0x00000000#32) (ix2 r q) = ∑ l : Fin 512, A (ix2 r l) * B (ix2 q l) := by
  simp only [matmul]
  rw [Ideal.matmul_constant_zero_apply, ← Equiv.sum_comp (contrEquiv1 dot_S512x512_S512x512_S512x512_1_1_0_0_n_n 512 rfl rfl).symm]
  refine Finset.sum_congr rfl fun l _ => ?_
  have hk := contrEquiv1_symm_val dot_S512x512_S512x512_S512x512_1_1_0_0_n_n 512 rfl rfl l
  have el : dot_S512x512_S512x512_S512x512_1_1_0_0_n_n.lhsIdx (ix2 r q) ((contrEquiv1 dot_S512x512_S512x512_S512x512_1_1_0_0_n_n 512 rfl rfl).symm l) = ix2 r l := funext fun a => Fin.ext (by
    match a with
    | ⟨0, _⟩ => exact d2_lhs0 _ _
    | ⟨1, _⟩ => exact (d2_lhs1 _ _).trans hk)
  have er : dot_S512x512_S512x512_S512x512_1_1_0_0_n_n.rhsIdx (ix2 r q) ((contrEquiv1 dot_S512x512_S512x512_S512x512_1_1_0_0_n_n 512 rfl rfl).symm l) = ix2 q l := funext fun a => Fin.ext (by
    match a with
    | ⟨0, _⟩ => exact d2_rhs0 _ _
    | ⟨1, _⟩ => exact (d2_rhs1 _ _).trans hk)
  rw [el, er]

end Cert.KernelIdeal.Dots

end
-- ==== Proof.Spec.lean ====
/-
  The specification: the result array as one function of the argument arrays, index by index, on the
  extended reals.  For a row b and a column i,
    out (b, i) = (∑ h, cos (phase b h) · an (i, h) + ∑ h, sin (phase b h) · bn (i, h)) + 2048 · bias (0, i),
    phase b h  = ∑ k, x (b, k) · coeff (k, h).
  The kernel forms every sum over 2048 terms tile by tile (four tiles of 512, added to a zero accumulator one
  after the other, the cosine and the sine tiles interleaved); the reference forms it whole.  The two agree
  because addition of extended reals is commutative and associative: no finiteness is used.
-/
import Idealize.ShloMosaic.PureOps.Ideal
import Idealize.ShloMosaic.PureOps.Ideal.Laws
import Idealize.ShloMosaic.Lib.ValueIdx

noncomputable section

namespace Cert.Fourier

open Idealize.ShloMosaic Idealize.ShloMosaic.ValueIdx

/-! ## Tiles of a sum over 2048 terms -/

/-- Entry `l` of tile `a`: the index `512 · a + l`. -/
def tileIdx (a : Fin 4) (l : Fin 512) : Fin 2048 := ⟨512 * a.val + l.val, by omega⟩

@[simp] theorem tileIdx_val (a : Fin 4) (l : Fin 512) : (tileIdx a l).val = 512 * a.val + l.val := rfl

/-- A sum over 2048 terms is the sum over the four tiles of the sums inside each tile. -/
theorem sum_tiles {M : Type*} [AddCommMonoid M] (f : Fin 2048 → M) :
    ∑ k : Fin 2048, f k = ∑ a : Fin 4, ∑ l : Fin 512, f (tileIdx a l) := by
  rw [← Fintype.sum_prod_type' (f := fun a l => f (tileIdx a l))]
  refine (Fintype.sum_equiv (finProdFinEquiv (m := 4) (n := 512)) (fun p => f (tileIdx p.1 p.2)) f (fun p => ?_)).symm
  refine congrArg f (Fin.ext ?_)
  show 512 * p.1.val + p.2.val = p.2.val + 512 * p.1.val
  omega

/-- The sum inside tile `a`. -/
def tileSum {M : Type*} [AddCommMonoid M] (f : Fin 2048 → M) (a : Fin 4) : M := ∑ l : Fin 512, f (tileIdx a l)

/-- The four tiles added one after the other to a zero accumulator give the whole sum. -/
theorem sum_eq_acc4 {M : Type*} [AddCommMonoid M] (f : Fin 2048 → M) :
    (((0 + tileSum f 0) + tileSum f 1) + tileSum f 2) + tileSum f 3 = ∑ k : Fin 2048, f k := by
  rw [sum_tiles, Fin.sum_univ_four, zero_add]
  rfl

/-- Two sums accumulated tile by tile and interleaved into ONE zero accumulator give the sum of the two
    whole sums. -/
theorem interleaved_acc4 {M : Type*} [AddCommMonoid M] (f g : Fin 2048 → M) :
    ((((((((0 + tileSum f 0) + tileSum g 0) + tileSum f 1) + tileSum g 1) + tileSum f 2) + tileSum g 2)
        + tileSum f 3) + tileSum g 3) = (∑ k : Fin 2048, f k) + ∑ k : Fin 2048, g k := by
  rw [← sum_eq_acc4 f, ← sum_eq_acc4 g]
  simp only [zero_add]
  abel

/-- The tile a natural number names: `k mod 4`. -/
def tileOf (k : ℕ) : Fin 4 := ⟨k % 4, Nat.mod_lt _ (by decide)⟩

/-- The accumulator after tiles `0 … H` of two sums accumulated tile by tile and interleaved, from zero. -/
def accUpTo {M : Type*} [AddCommMonoid M] (f g : Fin 2048 → M) : ℕ → M
  | 0 => (0 + tileSum f (tileOf 0)) + tileSum g (tileOf 0)
  | H + 1 => (accUpTo f g H + tileSum f (tileOf (H + 1))) + tileSum g (tileOf (H + 1))

/-- After the last tile it is the sum of the two whole sums. -/
theorem accUpTo_three {M : Type*} [AddCommMonoid M] (f g : Fin 2048 → M) :
    accUpTo f g 3 = (∑ k : Fin 2048, f k) + ∑ k : Fin 2048, g k := by
  rw [← interleaved_acc4]
  rfl

/-! ## The result, index by index -/

abbrev SX : Shape := ⟨2, ![4096, 2048]⟩
abbrev SC : Shape := ⟨2, ![2048, 2048]⟩
abbrev SB : Shape := ⟨2, ![1, 2048]⟩

variable (X : SX.Idx → EReal) (C A B : SC.Idx → EReal) (bias : SB.Idx → EReal)

/-- One term of the phase sum: `x (b, k) · coeff (k, h)`. -/
def phaseTerm (b : Fin 4096) (h : Fin 2048) (k : Fin 2048) : EReal := X (ix2 b k) * C (ix2 k h)

/-- `phase b h = ∑ k, x (b, k) · coeff (k, h)`. -/
def phase (b : Fin 4096) (h : Fin 2048) : EReal := ∑ k : Fin 2048, phaseTerm X C b h k

/-- One term of the cosine gain: `cos (phase b h) · an (i, h)`. -/
def cosTerm (b : Fin 4096) (i : Fin 2048) (h : Fin 2048) : EReal := Ideal.cos (phase X C b h) * A (ix2 i h)

/-- One term of the sine gain: `sin (phase b h) · bn (i, h)`. -/
def sinTerm (b : Fin 4096) (i : Fin 2048) (h : Fin 2048) : EReal := Ideal.sin (phase X C b h) * B (ix2 i h)

/-- The bias term: `2048 · bias (0, i)`, the scale the float word of 2048. -/
def biasTerm (i : Fin 2048) : EReal := Ideal.ofBits .f32 0x45000000#32 * bias (ix2 0 i)

/-- The result at `(b, i)`. -/
def out (j : SX.Idx) : EReal :=
  ((∑ h : Fin 2048, cosTerm X C A (j 0) (j 1) h) + ∑ h : Fin 2048, sinTerm X C B (j 0) (j 1) h) + biasTerm bias (j 1)

end Cert.Fourier

end
-- ==== Proof.BodyValue.lean ====
/-
  The body's terms read at an index, on the extended reals.
    * A k-tile step adds to the accumulator, at (r, h), the tile's part of  ∑ k, x (r, k) · coeff (k, h);  the four
      steps from zero give the whole sum: the phase block is  x-block · coeff.
    * The cosine and sine scratch are the cosine and the sine of the phase block, entry by entry (a change of float
      format is the identity).
    * A gain step at h-tile H adds, at (r, q), first  ∑ l, cos-scratch (r, 512H + l) · an-block (q, l),  then the same
      sum over the sine scratch and the bn block.
    * The output block is the gain block plus  2048 · bias-block (0, q).
-/
import proofs.«166430_j84696755077155_2_alg».proof.Proof.Body
import proofs.«166430_j84696755077155_2_alg».proof.Proof.Dots
import proofs.«166430_j84696755077155_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.BodyValue

open Cert.KernelIdeal Cert.KernelIdeal.Gen Cert.KernelIdeal.Body Cert.KernelIdeal.Dots Cert.Fourier

/-! ## The payloads at an index -/

/-- The zero phase block. -/
theorem pay2_apply (y : S512x2048.Idx) : k0_pay2 (F := Ideal) y = 0 := by
  unfold k0_pay2
  show shapeCast S512x2048 (broadcast S512x2048 (Scalar.ofBits (F := Ideal) .f32 0x00000000#32)) Facts₀.shapeCasts_S512x2048_S512x2048 y = 0
  rw [shapeCast_self]
  exact Ideal.ofBits_zero_f32

/-- The zero gain block. -/
theorem pay11_apply (y : S512x512.Idx) : k0_pay11 (F := Ideal) y = 0 := by
  unfold k0_pay11
  show shapeCast S512x512 (broadcast S512x512 (Scalar.ofBits (F := Ideal) .f32 0x00000000#32)) Facts₀.shapeCasts_S512x512_S512x512 y = 0
  rw [shapeCast_self]
  exact Ideal.ofBits_zero_f32

/-- A k-tile step: the accumulator plus the tile's product. -/
theorem ktile_step (A : FVec Ideal S512x512 .f32) (B acc : FVec Ideal S512x2048 .f32) (r : Fin 512) (h : Fin 2048) :
    shapeCast S512x2048 (addf acc (matmul dot_S512x512_S512x2048_S512x2048_1_0_0_1_n_n none (truncf .bf16 A Facts₀.bitsLt_bf16_f32)
        (truncf .bf16 B Facts₀.bitsLt_bf16_f32) (constant (F := Ideal) S512x2048 .f32 0x00000000#32))) Facts₀.shapeCasts_S512x2048_S512x2048 (ix2 r h)
      = acc (ix2 r h) + ∑ l : Fin 512, A (ix2 r l) * B (ix2 l h) := by
  rw [shapeCast_self]
  show acc (ix2 r h) + matmul dot_S512x512_S512x2048_S512x2048_1_0_0_1_n_n none (truncf .bf16 A Facts₀.bitsLt_bf16_f32) (truncf .bf16 B Facts₀.bitsLt_bf16_f32)
      (constant (F := Ideal) S512x2048 .f32 0x00000000#32) (ix2 r h) = _
  rw [phaseDot_apply]
  rfl

theorem pay3_apply (A : FVec Ideal S512x512 .f32) (B acc : FVec Ideal S512x2048 .f32) (r : Fin 512) (h : Fin 2048) :
    k0_pay3 A B acc (ix2 r h) = acc (ix2 r h) + ∑ l : Fin 512, A (ix2 r l) * B (ix2 l h) := by
  unfold k0_pay3; exact ktile_step A B acc r h

theorem pay4_apply (A : FVec Ideal S512x512 .f32) (B acc : FVec Ideal S512x2048 .f32) (r : Fin 512) (h : Fin 2048) :
    k0_pay4 A B acc (ix2 r h) = acc (ix2 r h) + ∑ l : Fin 512, A (ix2 r l) * B (ix2 l h) := by
  unfold k0_pay4; exact ktile_step A B acc r h

theorem pay8_apply (A : FVec Ideal S512x512 .f32) (B acc : FVec Ideal S512x2048 .f32) (r : Fin 512) (h : Fin 2048) :
    k0_pay8 A B acc (ix2 r h) = acc (ix2 r h) + ∑ l : Fin 512, A (ix2 r l) * B (ix2 l h) := by
  unfold k0_pay8; exact ktile_step A B acc r h

theorem pay7_apply (A : FVec Ideal S512x512 .f32) (B acc : FVec Ideal S512x2048 .f32) (r : Fin 512) (h : Fin 2048) :
    k0_pay7 (k0_pay5 A) (k0_pay6 B) acc (constant (F := Ideal) S512x2048 .f32 0x00000000#32) (ix2 r h)
      = acc (ix2 r h) + ∑ l : Fin 512, A (ix2 r l) * B (ix2 l h) := by
  unfold k0_pay7 k0_pay5 k0_pay6; exact ktile_step A B acc r h

/-- The tile's product, its operands loaded through the rectangles of k-tile `a`, is the tile's part of the phase sum. -/
theorem ktile_sum (x0 : Vec Ideal S512x2048 .f32) (x1 : Vec Ideal S2048x2048 .f32) (r : Fin 512) (h : Fin 2048) (a : Fin 4)
    (offx offc : Fin 2 → Nat) (hx : offx = ![0, 512 * a.val]) (hc : offc = ![512 * a.val, 0])
    (inbx : ∀ d, offx d + S512x512.size d ≤ S512x2048.size d) (inbc : ∀ d, offc d + S512x2048.size d ≤ S2048x2048.size d) :
    ∑ l : Fin 512, View.ld x0 (Rect.unit (s := S512x2048) offx S512x512.size inbx) (ix2 r l)
        * View.ld x1 (Rect.unit (s := S2048x2048) offc S512x2048.size inbc) (ix2 l h)
      = tileSum (fun k => x0 (ix2 r k) * x1 (ix2 k h)) a := by
  subst hx hc
  unfold tileSum
  refine Finset.sum_congr rfl fun l _ => ?_
  rw [ld_unit_ix2 x0 _ inbx r l r (tileIdx a l) (by show r.val = 0 + r.val; omega) (by show 512 * a.val + l.val = 512 * a.val + l.val; rfl),
    ld_unit_ix2 x1 _ inbc l h (tileIdx a l) h (by show 512 * a.val + l.val = 512 * a.val + l.val; rfl) (by show h.val = 0 + h.val; omega)]

/-- The phase block is the x block times the coefficients. -/
theorem phaseAcc_apply (x0 : Vec Ideal S512x2048 .f32) (x1 : Vec Ideal S2048x2048 .f32) (r : Fin 512) (h : Fin 2048) :
    phaseAcc x0 x1 (ix2 r h) = ∑ k : Fin 2048, x0 (ix2 r k) * x1 (ix2 k h) := by
  unfold phaseAcc
  rw [pay8_apply, pay7_apply, pay4_apply, pay3_apply, pay2_apply,
    ktile_sum x0 x1 r h 0 ![0, 0] ![0, 0] rfl rfl, ktile_sum x0 x1 r h 1 ![0, 512] ![512, 0] rfl rfl,
    ktile_sum x0 x1 r h 2 ![0, 1024] ![1024, 0] rfl rfl, ktile_sum x0 x1 r h 3 ![0, 1536] ![1536, 0] rfl rfl]
  exact sum_eq_acc4 _

/-- The cosine scratch, entry by entry. -/
theorem cosScr_apply (x0 : Vec Ideal S512x2048 .f32) (x1 : Vec Ideal S2048x2048 .f32) (r : Fin 512) (h : Fin 2048) :
    cosScr x0 x1 (ix2 r h) = Ideal.cos (∑ k : Fin 2048, x0 (ix2 r k) * x1 (ix2 k h)) := by
  unfold cosScr k0_pay9
  show shapeCast S512x2048 (truncf .bf16 (cos (phaseAcc x0 x1)) Facts₀.bitsLt_bf16_f32) Facts₀.shapeCasts_S512x2048_S512x2048 (ix2 r h) = _
  rw [shapeCast_self]
  show Ideal.cos (phaseAcc x0 x1 (ix2 r h)) = _
  rw [phaseAcc_apply]

/-- The sine scratch, entry by entry. -/
theorem sinScr_apply (x0 : Vec Ideal S512x2048 .f32) (x1 : Vec Ideal S2048x2048 .f32) (r : Fin 512) (h : Fin 2048) :
    sinScr x0 x1 (ix2 r h) = Ideal.sin (∑ k : Fin 2048, x0 (ix2 r k) * x1 (ix2 k h)) := by
  unfold sinScr k0_pay10
  show shapeCast S512x2048 (truncf .bf16 (sin (phaseAcc x0 x1)) Facts₀.bitsLt_bf16_f32) Facts₀.shapeCasts_S512x2048_S512x2048 (ix2 r h) = _
  rw [shapeCast_self]
  show Ideal.sin (phaseAcc x0 x1 (ix2 r h)) = _
  rw [phaseAcc_apply]

/-- One accumulation into the gain block: the accumulator plus  scratch-slice · blockᵀ. -/
theorem gain_half (S : FVec Ideal S512x512 .bf16) (Bk acc : FVec Ideal S512x512 .f32) (r q : Fin 512) :
    shapeCast S512x512 (addf acc (matmul dot_S512x512_S512x512_S512x512_1_1_0_0_n_n none S
        (truncf .bf16 (shapeCast S512x512 Bk Facts₀.shapeCasts_S512x512_S512x512) Facts₀.bitsLt_bf16_f32)
        (constant (F := Ideal) S512x512 .f32 0x00000000#32))) Facts₀.shapeCasts_S512x512_S512x512 (ix2 r q)
      = acc (ix2 r q) + ∑ l : Fin 512, S (ix2 r l) * Bk (ix2 q l) := by
  rw [shapeCast_self, shapeCast_self]
  show acc (ix2 r q) + matmul dot_S512x512_S512x512_S512x512_1_1_0_0_n_n none S (truncf .bf16 Bk Facts₀.bitsLt_bf16_f32) (constant (F := Ideal) S512x512 .f32 0x00000000#32) (ix2 r q) = _
  rw [gainDot_apply]
  rfl

theorem pay12_apply (S : FVec Ideal S512x512 .bf16) (Bk acc : FVec Ideal S512x512 .f32) (r q : Fin 512) :
    k0_pay12 S Bk acc (ix2 r q) = acc (ix2 r q) + ∑ l : Fin 512, S (ix2 r l) * Bk (ix2 q l) := by
  unfold k0_pay12; exact gain_half S Bk acc r q

theorem pay13_apply (S : FVec Ideal S512x512 .bf16) (Bk acc : FVec Ideal S512x512 .f32) (r q : Fin 512) :
    k0_pay13 S Bk acc (ix2 r q) = acc (ix2 r q) + ∑ l : Fin 512, S (ix2 r l) * Bk (ix2 q l) := by
  unfold k0_pay13; exact gain_half S Bk acc r q

/-- The scratch's slice at h-tile `H`, read at `(r, l)`, is the scratch at `(r, 512H + l)`. -/
theorem slice_apply (i : grid0.Coords) (H : Fin 4) (hH : (i 2).val = H.val) (xs : Vec Ideal S512x2048 .bf16) (r l : Fin 512) :
    View.ld xs (Rect.unit (s := S512x2048) (k0_off1 i) S512x512.size (Facts₀.k0_off1_inb i)) (ix2 r l) = xs (ix2 r (tileIdx H l)) :=
  ld_unit_ix2 xs _ (Facts₀.k0_off1_inb i) r l r (tileIdx H l)
    (by rw [k0_off1_eq]; show r.val = 0 + r.val; omega)
    (by rw [k0_off1_eq]; show 512 * H.val + l.val = 512 * (i 2).val + l.val; rw [hH])

/-- A gain step at h-tile `H`. -/
theorem gainStep_apply (i : grid0.Coords) (H : Fin 4) (hH : (i 2).val = H.val) (xs0 xs1 : Vec Ideal S512x2048 .bf16)
    (x2 x3 acc : Vec Ideal S512x512 .f32) (r q : Fin 512) :
    gainStep i xs0 xs1 x2 x3 acc (ix2 r q)
      = (acc (ix2 r q) + ∑ l : Fin 512, xs0 (ix2 r (tileIdx H l)) * x2 (ix2 q l))
          + ∑ l : Fin 512, xs1 (ix2 r (tileIdx H l)) * x3 (ix2 q l) := by
  unfold gainStep
  rw [pay13_apply, pay12_apply]
  exact congrArg₂ (· + ·)
    (congrArg (acc (ix2 r q) + ·) (Finset.sum_congr rfl fun l _ => congrArg (· * x2 (ix2 q l)) (slice_apply i H hH xs0 r l)))
    (Finset.sum_congr rfl fun l _ => congrArg (· * x3 (ix2 q l)) (slice_apply i H hH xs1 r l))

/-- The output block: the gain block plus the scaled bias row. -/
theorem pay1_apply (g : FVec Ideal S512x512 .f32) (b : FVec Ideal S1x512 .f32) (r q : Fin 512) :
    k0_pay1 g b (ix2 r q) = g (ix2 r q) + Ideal.ofBits .f32 0x45000000#32 * b (ix2 (0 : Fin 1) q) := by
  unfold k0_pay1
  show g (ix2 r q) + broadcastTo S512x512 (mulf (broadcast S1x512 (Scalar.ofBits (F := Ideal) .f32 0x45000000#32)) b)
      Facts₀.broadcasts_S1x512_S512x512 (ix2 r q) = _
  rw [broadcastTo_1b_ab_apply]
  rfl

end Cert.KernelIdeal.BodyValue

end
-- ==== Proof.Blocks.lean ====
/-
  The windows' blocks as parts of the arrays.  The grid point  t = 16·i + 4·j + h  (i < 8 a block of 512 rows,
  j < 4 a block of 512 output columns, h < 4 a tile of 512 terms of the gain sums) sees:
    * rows 512i … 512i + 511 of x, whole;           * the coefficients, whole;
    * rows 512j …, columns 512h … of an and of bn;    * columns 512j … of the bias row;
  and writes rows 512i …, columns 512j … of the result.  The amplitude arrays the region sees are the host's
  reshapes of the rank-3 arguments to 2048 × 2048.
-/
import proofs.«166430_j84696755077155_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps and the h coordinate at point `t`, decided over the grid. -/
theorem index_facts : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = t.val / 4 % 4 ∧ win0_2.index t (1 : Fin 2) = t.val % 4
    ∧ win0_3.index t (0 : Fin 2) = t.val / 4 % 4 ∧ win0_3.index t (1 : Fin 2) = t.val % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4
    ∧ ((grid0.coords t) 2).val = t.val % 4 :=
  (by decide +kernel : ∀ t : Fin grid0.N, _)

/-- The x block at `t`, read at `(r, k)`: x at row `512 (t / 16) + r`. -/
theorem xblk_apply (c : Dev nD) (t : Fin cfg0.N) (r : Fin 512) (k : Fin 2048) (R : Fin 4096)
    (hR : R.val = 512 * (t.val / 16) + r.val) :
    (iblk m c 0 t : Vec F S512x2048 .f32) (ix2 r k) = V m c main_arg0 (ix2 R k) := by
  obtain ⟨e0, e1, -⟩ := index_facts t
  unfold iblk
  rw [View.read_apply]
  show V m c main_arg0 _ = V m c main_arg0 _
  refine congrArg _ (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The coefficient block at `t` is the whole array. -/
theorem cblk_apply (c : Dev nD) (t : Fin cfg0.N) (k h : Fin 2048) :
    (iblk m c 1 t : Vec F S2048x2048 .f32) (ix2 k h) = V m c main_arg1 (ix2 k h) := by
  obtain ⟨-, -, e0, e1, -⟩ := index_facts t
  unfold iblk
  rw [View.read_apply]
  show V m c main_arg1 _ = V m c main_arg1 _
  refine congrArg _ (funext fun a => Fin.ext ?_)
  match a with
  | ⟨0, _⟩ => show win0_1.index t (0 : Fin 2) * 2048 + 1 * k.val = k.val; omega
  | ⟨1, _⟩ => show win0_1.index t (1 : Fin 2) * 2048 + 1 * h.val = h.val; omega

/-- The an block at `t`, read at `(q, l)`: an at row `512 (t / 4 % 4) + q`, column `512 (t % 4) + l`. -/
theorem ablk_apply (c : Dev nD) (t : Fin cfg0.N) (q l : Fin 512) (Q L : Fin 2048)
    (hQ : Q.val = 512 * (t.val / 4 % 4) + q.val) (hL : L.val = 512 * (t.val % 4) + l.val) :
    (iblk m c 2 t : Vec F S512x512 .f32) (ix2 q l) = V m c main_v0 (ix2 Q L) := by
  obtain ⟨-, -, -, -, e0, e1, -⟩ := index_facts t
  unfold iblk
  rw [View.read_apply]
  show V m c main_v0 _ = V m c main_v0 _
  refine congrArg _ (funext fun a => Fin.ext ?_)
  match a with
  | ⟨0, _⟩ => show win0_2.index t (0 : Fin 2) * 512 + 1 * q.val = Q.val; omega
  | ⟨1, _⟩ => show win0_2.index t (1 : Fin 2) * 512 + 1 * l.val = L.val; omega

/-- The bn block at `t`, likewise. -/
theorem bblk_apply (c : Dev nD) (t : Fin cfg0.N) (q l : Fin 512) (Q L : Fin 2048)
    (hQ : Q.val = 512 * (t.val / 4 % 4) + q.val) (hL : L.val = 512 * (t.val % 4) + l.val) :
    (iblk m c 3 t : Vec F S512x512 .f32) (ix2 q l) = V m c main_v1 (ix2 Q L) := by
  obtain ⟨-, -, -, -, -, -, e0, e1, -⟩ := index_facts t
  unfold iblk
  rw [View.read_apply]
  show V m c main_v1 _ = V m c main_v1 _
  refine congrArg _ (funext fun a => Fin.ext ?_)
  match a with
  | ⟨0, _⟩ => show win0_3.index t (0 : Fin 2) * 512 + 1 * q.val = Q.val; omega
  | ⟨1, _⟩ => show win0_3.index t (1 : Fin 2) * 512 + 1 * l.val = L.val; omega

/-- The bias block at `t`, read at `(0, q)`: the bias row at column `512 (t / 4 % 4) + q`. -/
theorem biasblk_apply (c : Dev nD) (t : Fin cfg0.N) (q : Fin 512) (Q : Fin 2048)
    (hQ : Q.val = 512 * (t.val / 4 % 4) + q.val) :
    (iblk m c 4 t : Vec F S1x512 .f32) (ix2 (0 : Fin 1) q) = V m c main_arg4 (ix2 (0 : Fin 1) Q) := by
  obtain ⟨-, -, -, -, -, -, -, -, e0, e1, -⟩ := index_facts t
  unfold iblk
  rw [View.read_apply]
  show V m c main_arg4 _ = V m c main_arg4 _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = Q.val; omega

/-- The an array the region sees is the host's reshape of the rank-3 argument. -/
theorem V_an (c : Dev nD) :
    (V m c main_v0 : S2048x2048.Idx → Elt F .f32)
      = shapeCast S2048x2048 (m ((c : Thread nD τ).loc main_arg2)) Facts₀.shapeCasts_S1x2048x2048_S2048x2048 := by
  dsimp only [Gen.V, Gen.hostOps0]; after_results; rfl

/-- The bn array the region sees, likewise. -/
theorem V_bn (c : Dev nD) :
    (V m c main_v1 : S2048x2048.Idx → Elt F .f32)
      = shapeCast S2048x2048 (m ((c : Thread nD τ).loc main_arg3)) Facts₀.shapeCasts_S1x2048x2048_S2048x2048 := by
  dsimp only [Gen.V, Gen.hostOps0]; after_results; rfl

end Cert.KernelIdeal.Blocks

end
-- ==== Proof.Invariant.lean ====
/-
  The invariant of the run.  After grid point  t = 16·i + 4·j + h  the kernel's carried scratch holds:
    * the cosine scratch:  cos (phase (512i + r) hh)  at (r, hh),  phase = x · coeff;   the sine scratch likewise;
    * the gain block:  at (r, q), the accumulator after h-tiles 0 … h of the two interleaved sums
        ∑ hh, cos (phase (512i + r) hh) · an (512j + q, hh)   and   ∑ hh, sin (phase (512i + r) hh) · bn (512j + q, hh);
  and at h = 3 the output block holds the whole result at (512i + r, 512j + q).  By induction on the point: the
  scratch is written where j = 0 and h = 0 and kept elsewhere, the gain block restarts from zero where h = 0.
-/
import proofs.«166430_j84696755077155_2_alg».proof.Proof.Cases
import proofs.«166430_j84696755077155_2_alg».proof.Proof.BodyValue
import proofs.«166430_j84696755077155_2_alg».proof.Proof.Blocks
import proofs.«166430_j84696755077155_2_alg».proof.Proof.Spec

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Body Cert.KernelIdeal.BodyValue Cert.KernelIdeal.Blocks
open Cert.KernelIdeal.Cases Cert.Fourier

variable (m : (ℓ : Loc nD τ sig) → Buf (Elt Ideal) ℓ)

/-! ## The arrays the region sees, and the blocks' expected contents -/

/-- Row `512 I + r` of the result. -/
def rowOf (I : Fin 8) (r : Fin 512) : Fin 4096 := ⟨512 * I.val + r.val, by omega⟩
/-- Column `512 J + q` of the result. -/
def colOf (J : Fin 4) (q : Fin 512) : Fin 2048 := ⟨512 * J.val + q.val, by omega⟩

abbrev aX (c : Dev nD) : SX.Idx → EReal := V m c main_arg0
abbrev aC (c : Dev nD) : SC.Idx → EReal := V m c main_arg1
abbrev aA (c : Dev nD) : SC.Idx → EReal := V m c main_v0
abbrev aB (c : Dev nD) : SC.Idx → EReal := V m c main_v1
abbrev aBias (c : Dev nD) : SB.Idx → EReal := V m c main_arg4

/-- The cosine scratch while row block `I` is worked on. -/
def cosBlk (c : Dev nD) (I : Fin 8) : Vec Ideal S512x2048 .bf16 :=
  fun y => Ideal.cos (phase (aX m c) (aC m c) (rowOf I (y 0)) (y 1))
/-- The sine scratch while row block `I` is worked on. -/
def sinBlk (c : Dev nD) (I : Fin 8) : Vec Ideal S512x2048 .bf16 :=
  fun y => Ideal.sin (phase (aX m c) (aC m c) (rowOf I (y 0)) (y 1))
/-- The gain block of row block `I`, column block `J`, after h-tiles `0 … H`. -/
def gainBlk (c : Dev nD) (I : Fin 8) (J : Fin 4) (H : ℕ) : Vec Ideal S512x512 .f32 :=
  fun y => accUpTo (cosTerm (aX m c) (aC m c) (aA m c) (rowOf I (y 0)) (colOf J (y 1)))
    (sinTerm (aX m c) (aC m c) (aB m c) (rowOf I (y 0)) (colOf J (y 1))) H

/-! ## The steps' values over the blocks -/

/-- The phase of the point's x block against the coefficients is the phase of the arrays at the block's rows. -/
theorem phase_blk (c : Dev nD) (t : Fin cfg0.N) (I : Fin 8) (hI : I.val = t.val / 16) (r : Fin 512) (h : Fin 2048)
    (x0 : Vec Ideal S512x2048 .f32) (x1 : Vec Ideal S2048x2048 .f32) (e0 : x0 = iblk m c 0 t) (e1 : x1 = iblk m c 1 t) :
    ∑ k : Fin 2048, x0 (ix2 r k) * x1 (ix2 k h) = phase (aX m c) (aC m c) (rowOf I r) h := by
  subst e0 e1
  unfold phase phaseTerm
  refine Finset.sum_congr rfl fun k _ => ?_
  rw [xblk_apply m c t r k (rowOf I r) (by show 512 * I.val + r.val = _; rw [hI]), cblk_apply m c t k h]

/-- Where the scratch is written it is the expected cosine block, -/
theorem cos_written (c : Dev nD) (t : Fin cfg0.N) (I : Fin 8) (hI : I.val = t.val / 16) :
    cosScr (iblk m c 0 t) (iblk m c 1 t) = cosBlk m c I := by
  funext y
  obtain ⟨r, h, rfl⟩ : ∃ (r : Fin 512) (h : Fin 2048), y = ix2 r h := ⟨y 0, y 1, eq_ix2 y⟩
  rw [cosScr_apply, phase_blk m c t I hI r h _ _ rfl rfl]
  rfl

/-- and the expected sine block. -/
theorem sin_written (c : Dev nD) (t : Fin cfg0.N) (I : Fin 8) (hI : I.val = t.val / 16) :
    sinScr (iblk m c 0 t) (iblk m c 1 t) = sinBlk m c I := by
  funext y
  obtain ⟨r, h, rfl⟩ : ∃ (r : Fin 512) (h : Fin 2048), y = ix2 r h := ⟨y 0, y 1, eq_ix2 y⟩
  rw [sinScr_apply, phase_blk m c t I hI r h _ _ rfl rfl]
  rfl

/-- A gain step at point `t` over the expected scratch adds tile `T = t mod 4` of the cosine sum, then of the sine sum. -/
theorem gain_step_val (c : Dev nD) (t : Fin cfg0.N) (I : Fin 8) (J : Fin 4) (T : Fin 4) (hJ : J.val = t.val / 4 % 4)
    (hT : T.val = t.val % 4) (acc : Vec Ideal S512x512 .f32) :
    gainStep (grid0.coords t) (cosBlk m c I) (sinBlk m c I) (iblk m c 2 t) (iblk m c 3 t) acc
      = fun y => (acc y + tileSum (cosTerm (aX m c) (aC m c) (aA m c) (rowOf I (y 0)) (colOf J (y 1))) T)
          + tileSum (sinTerm (aX m c) (aC m c) (aB m c) (rowOf I (y 0)) (colOf J (y 1))) T := by
  have hc2 : ((grid0.coords t) 2).val = T.val := by
    rw [hT]; exact (index_facts t).2.2.2.2.2.2.2.2.2.2.2.2
  funext y
  obtain ⟨r, q, rfl⟩ : ∃ (r q : Fin 512), y = ix2 r q := ⟨y 0, y 1, eq_ix2 y⟩
  rw [gainStep_apply (grid0.coords t) T hc2]
  refine congrArg₂ (· + ·) (congrArg (acc (ix2 r q) + ·) ?_) ?_
  · unfold tileSum cosTerm
    refine Finset.sum_congr rfl fun l _ => ?_
    rw [ablk_apply m c t q l (colOf J q) (tileIdx T l) (by show 512 * J.val + q.val = _; rw [hJ])
      (by show 512 * T.val + l.val = _; rw [hT])]
    rfl
  · unfold tileSum sinTerm
    refine Finset.sum_congr rfl fun l _ => ?_
    rw [bblk_apply m c t q l (colOf J q) (tileIdx T l) (by show 512 * J.val + q.val = _; rw [hJ])
      (by show 512 * T.val + l.val = _; rw [hT])]
    rfl

/-- From the zero block, one step gives the accumulator after tile 0. -/
theorem gain_from_zero (c : Dev nD) (t : Fin cfg0.N) (I : Fin 8) (J : Fin 4) (hJ : J.val = t.val / 4 % 4) (h1 : t.val % 4 = 0) :
    gainStep (grid0.coords t) (cosBlk m c I) (sinBlk m c I) (iblk m c 2 t) (iblk m c 3 t) (k0_pay11 (F := Ideal)) = gainBlk m c I J 0 := by
  rw [gain_step_val m c t I J (tileOf 0) hJ (by show 0 % 4 = _; omega)]
  funext y
  show (k0_pay11 (F := Ideal) y + _) + _ = _
  rw [pay11_apply]
  rfl

/-- From the accumulator after tile `H`, one step at `t mod 4 = H + 1` gives the accumulator after tile `H + 1`. -/
theorem gain_from_prev (c : Dev nD) (t : Fin cfg0.N) (I : Fin 8) (J : Fin 4) (H : ℕ) (hJ : J.val = t.val / 4 % 4)
    (hH : t.val % 4 = H + 1) :
    gainStep (grid0.coords t) (cosBlk m c I) (sinBlk m c I) (iblk m c 2 t) (iblk m c 3 t) (gainBlk m c I J H)
      = gainBlk m c I J (H + 1) := by
  rw [gain_step_val m c t I J (tileOf (H + 1)) hJ (by show (H + 1) % 4 = _; omega)]
  rfl

/-! ## The invariant -/

/-- What the carried scratch holds after point `n`. -/
def Inv (c : Dev nD) (n : ℕ) (hn : n < cfg0.N) : Prop :=
  ∀ (I : Fin 8) (J : Fin 4), I.val = n / 16 → J.val = n / 4 % 4 →
    (outsAt0 m c n hn).2.1 = cosBlk m c I ∧ (outsAt0 m c n hn).2.2.1 = sinBlk m c I
      ∧ (outsAt0 m c n hn).2.2.2 = gainBlk m c I J (n % 4)

/-- A point with j = 0, h = 0 establishes it afresh. -/
theorem inv_first (c : Dev nD) (t : Fin cfg0.N) (h0 : t.val % 16 = 0) : Inv m c t.val t.isLt := by
  intro I J hI hJ
  have h1 : t.val % 4 = 0 := by omega
  have h2 : ¬t.val % 4 = 3 := by omega
  refine ⟨(cos_first m c t h0 h1 h2).trans (cos_written m c t I hI), (sin_first m c t h0 h1 h2).trans (sin_written m c t I hI), ?_⟩
  rw [gain_first m c t h0 h1 h2, cos_written m c t I hI, sin_written m c t I hI, h1]
  exact gain_from_zero m c t I J hJ h1

/-- A later point keeps it, given it at the point before. -/
theorem inv_next (c : Dev nD) (t : Fin cfg0.N) (h0 : ¬t.val % 16 = 0)
    (ih : Inv m c (t.val - 1) (Nat.lt_of_le_of_lt (Nat.sub_le _ _) t.isLt)) : Inv m c t.val t.isLt := by
  intro I J hI hJ
  have hpos : 0 < t.val := by rcases Nat.eq_zero_or_pos t.val with h | h; exact absurd (by rw [h]) h0; exact h
  have hI' : I.val = (t.val - 1) / 16 := by omega
  by_cases h1 : t.val % 4 = 0
  · -- a new column block: the scratch is kept, the gain block restarts
    have h2 : ¬t.val % 4 = 3 := by omega
    obtain ⟨pc, ps, -⟩ := ih I ⟨(t.val - 1) / 4 % 4, Nat.mod_lt _ (by decide)⟩ hI' rfl
    refine ⟨(cos_reset m c t h0 h1 h2).trans pc, (sin_reset m c t h0 h1 h2).trans ps, ?_⟩
    rw [gain_reset m c t h0 h1 h2, pc, ps, h1]
    exact gain_from_zero m c t I J hJ h1
  · -- the same column block: one more tile
    have hJ' : J.val = (t.val - 1) / 4 % 4 := by omega
    obtain ⟨H, hH⟩ : ∃ H, t.val % 4 = H + 1 := ⟨t.val % 4 - 1, by omega⟩
    have hprev : (t.val - 1) % 4 = H := by omega
    obtain ⟨pc, ps, pg⟩ := ih I J hI' hJ'
    rw [hprev] at pg
    by_cases h2 : t.val % 4 = 3
    · refine ⟨(cos_last m c t h0 h1 h2).trans pc, (sin_last m c t h0 h1 h2).trans ps, ?_⟩
      rw [gain_last m c t h0 h1 h2, pc, ps, pg, hH]
      exact gain_from_prev m c t I J H hJ hH
    · refine ⟨(cos_mid m c t h0 h1 h2).trans pc, (sin_mid m c t h0 h1 h2).trans ps, ?_⟩
      rw [gain_mid m c t h0 h1 h2, pc, ps, pg, hH]
      exact gain_from_prev m c t I J H hJ hH

/-- The invariant holds after every point. -/
theorem inv_all (c : Dev nD) : ∀ (n : ℕ) (hn : n < cfg0.N), Inv m c n hn
  | 0, hn => inv_first m c ⟨0, hn⟩ rfl
  | n + 1, hn => by
    by_cases h0 : (n + 1) % 16 = 0
    · exact inv_first m c ⟨n + 1, hn⟩ h0
    · exact inv_next m c ⟨n + 1, hn⟩ h0 (inv_all c n (Nat.lt_of_succ_lt hn))

/-! ## The output block at the last h-tile -/

/-- At a point with h = 3 the output block holds the result at the block's rows and columns. -/
theorem out_block (c : Dev nD) (t : Fin cfg0.N) (h2 : t.val % 4 = 3) (I : Fin 8) (J : Fin 4) (hI : I.val = t.val / 16)
    (hJ : J.val = t.val / 4 % 4) :
    (outsAt0 m c t.val t.isLt).1
      = fun y => out (aX m c) (aC m c) (aA m c) (aB m c) (aBias m c) (ix2 (rowOf I (y 0)) (colOf J (y 1))) := by
  have h0 : ¬t.val % 16 = 0 := by omega
  have h1 : ¬t.val % 4 = 0 := by omega
  obtain ⟨pc, ps, pg⟩ := inv_all m c (t.val - 1) (Nat.lt_of_le_of_lt (Nat.sub_le _ _) t.isLt) I J (by omega) (by omega)
  rw [show (t.val - 1) % 4 = 2 by omega] at pg
  rw [out_last m c t h0 h1 h2, pc, ps, pg, gain_from_prev m c t I J 2 hJ h2]
  funext y
  obtain ⟨r, q, rfl⟩ : ∃ (r q : Fin 512), y = ix2 r q := ⟨y 0, y 1, eq_ix2 y⟩
  rw [pay1_apply, biasblk_apply m c t q (colOf J q) (by show 512 * J.val + q.val = _; rw [hJ])]
  show accUpTo _ _ 3 + _ = _
  rw [accUpTo_three]
  rfl

end Cert.KernelIdeal.Invariant

end
-- ==== Proof.Result.lean ====
/-
  From blocks to the array.  The output block is written back at the points with h = 3, one for every pair (i, j);
  what is written back there is block (i, j) of the specification, and the 8 × 4 blocks of 512 × 512 cover the
  4096 × 2048 result: so after the run the result array IS the specification of the arrays the region saw — the
  arguments, the two amplitude arrays through the host's reshape.
-/
import proofs.«166430_j84696755077155_2_alg».proof.Proof.Invariant
import proofs.«166430_j84696755077155_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Invariant Cert.Fourier

variable (m : (ℓ : Loc nD τ sig) → Buf (Elt Ideal) ℓ) (ρ : Dev nD → PrngReg)

/-- The result array: the specification of the arrays the region sees. -/
abbrev result (c : Dev nD) : Buf (Elt Ideal) ((c : Thread nD τ).loc main_v2) :=
  out (aX m c) (aC m c) (aA m c) (aB m c) (aBias m c)

/-- What a point with h = 3 writes back is its block of the result. -/
theorem flushed_eq (c : Dev nD) (t : Fin cfg0.N) (hf : (cfg0.win 5).flush t = true) :
    (dats m 0 c).flushed 5 t = ((cfg0.win 5).blk t).view.read (Elt Ideal) (result m c) := by
  have h2 : t.val % 4 = 3 := (flush0_5 t).mp hf
  have hN : t.val < 128 := lt_of_lt_of_eq t.isLt N_0
  obtain ⟨-, -, -, -, -, -, -, -, -, -, e0, e1, -⟩ := index_facts t
  rw [Cert.KernelIdeal.Value.flushed5,
    out_block m c t h2 ⟨t.val / 16, by omega⟩ ⟨t.val / 4 % 4, Nat.mod_lt _ (by decide)⟩ rfl rfl]
  funext j
  show result m c _ = result m c (((cfg0.win 5).blk t).view.emb j)
  refine congrArg _ (funext fun a => Fin.ext ?_)
  match a with
  | ⟨0, _⟩ => show 512 * (t.val / 16) + (j 0).val = win0_5.index t (0 : Fin 2) * 512 + 1 * (j 0).val; omega
  | ⟨1, _⟩ => show 512 * (t.val / 4 % 4) + (j 1).val = win0_5.index t (1 : Fin 2) * 512 + 1 * (j 1).val; omega

/-- An index of the array is in point `t`'s block iff each coordinate is in the block's range on its axis. -/
theorem mem_blk (t : Fin cfg0.N) (i : S4096x2048.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v2).slice (win0_5.rect t)).set ↔ _
  rw [View.set_slice_whole, Rect.mem_set_unit]
  exact Iff.rfl

/-- Every index of the result is in the block some point with h = 3 writes back: row `b`, column `i` in that of
    the point `16 (b / 512) + 4 (i / 512) + 3`. -/
theorem cover (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨tv, htv⟩ : ∃ tv, tv = 16 * ((i 0).val / 512) + 4 * ((i 1).val / 512) + 3 := ⟨_, rfl⟩
  have hlt : tv < cfg0.N := by rw [show cfg0.N = 128 from N_0]; omega
  obtain ⟨-, -, -, -, -, -, -, -, -, -, e0, e1, -⟩ := index_facts ⟨tv, hlt⟩
  refine ⟨⟨tv, hlt⟩, (flush0_5 _).mpr (by show tv % 4 = 3; omega), ?_⟩
  rw [mem_blk]
  intro a
  match a with
  | ⟨0, _⟩ =>
    show win0_5.index ⟨tv, hlt⟩ (0 : Fin 2) * 512 ≤ (i 0).val ∧ (i 0).val < win0_5.index ⟨tv, hlt⟩ (0 : Fin 2) * 512 + 512
    rw [e0]; show tv / 16 * 512 ≤ _ ∧ _ < tv / 16 * 512 + 512; omega
  | ⟨1, _⟩ =>
    show win0_5.index ⟨tv, hlt⟩ (1 : Fin 2) * 512 ≤ (i 1).val ∧ (i 1).val < win0_5.index ⟨tv, hlt⟩ (1 : Fin 2) * 512 + 512
    rw [e1]; show tv / 4 % 4 * 512 ≤ _ ∧ _ < tv / 4 % 4 * 512 + 512; omega

/-- The result array after the run. -/
theorem final (c : Dev nD) : (dats m 0 c).arrAt 5 cfg0.N = result m c :=
  (dats m 0 c).arrAt_eq_of_cover 5 (result m c) (flushed_eq m c) cover

/-- In terms of the arguments as launched: the x, coefficient and bias arrays themselves, the amplitude arrays
    reshaped to 2048 × 2048. -/
theorem result_eq (c : Dev nD) :
    result m c = out (m ((c : Thread nD τ).loc main_arg0)) (m ((c : Thread nD τ).loc main_arg1))
      (shapeCast S2048x2048 (m ((c : Thread nD τ).loc main_arg2)) Facts₀.shapeCasts_S1x2048x2048_S2048x2048)
      (shapeCast S2048x2048 (m ((c : Thread nD τ).loc main_arg3)) Facts₀.shapeCasts_S1x2048x2048_S2048x2048)
      (m ((c : Thread nD τ).loc main_arg4)) := by
  show out (V m c main_arg0) (V m c main_arg1) (V m c main_v0) (V m c main_v1) (V m c main_arg4) = _
  rw [V_main_arg0, V_main_arg1, V_main_arg4, V_an, V_bn]

/-- The kernel's run: it ends with the result array at the specification and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Result

end
-- ==== Proof.Reference.lean ====
/-
  The reference, read stage by stage at an index, is the specification: its  phase = x · coeff  is the phase sum,
  its two einsums are the cosine and the sine sums against the reshaped amplitude arrays, and its last two stages add
  the bias row scaled by the float word of 2048.
-/
import proofs.«166430_j84696755077155_2_alg».proof.Proof.Gen.ReferenceIdeal.Read
import proofs.«166430_j84696755077155_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.Fourier

theorem lidx0 (b : Fin 4096) (h k : Fin 2048) : lidx_main_v0 (ix2 b h) k = ix2 b k :=
  funext fun a => Fin.ext (by match a with | ⟨0, _⟩ => rfl | ⟨1, _⟩ => rfl)
theorem ridx0 (b : Fin 4096) (h k : Fin 2048) : ridx_main_v0 (ix2 b h) k = ix2 k h :=
  funext fun a => Fin.ext (by match a with | ⟨0, _⟩ => rfl | ⟨1, _⟩ => rfl)
theorem lidx3 (b : Fin 4096) (i h : Fin 2048) : lidx_main_v3 (ix2 b i) h = ix2 b h :=
  funext fun a => Fin.ext (by match a with | ⟨0, _⟩ => rfl | ⟨1, _⟩ => rfl)
theorem ridx3 (b : Fin 4096) (i h : Fin 2048) : ridx_main_v3 (ix2 b i) h = ix2 i h :=
  funext fun a => Fin.ext (by match a with | ⟨0, _⟩ => rfl | ⟨1, _⟩ => rfl)
theorem lidx6 (b : Fin 4096) (i h : Fin 2048) : lidx_main_v6 (ix2 b i) h = ix2 b h :=
  funext fun a => Fin.ext (by match a with | ⟨0, _⟩ => rfl | ⟨1, _⟩ => rfl)
theorem ridx6 (b : Fin 4096) (i h : Fin 2048) : ridx_main_v6 (ix2 b i) h = ix2 i h :=
  funext fun a => Fin.ext (by match a with | ⟨0, _⟩ => rfl | ⟨1, _⟩ => rfl)
theorem idx10 (b : Fin 4096) (i : Fin 2048) : idx_main_v10 (ix2 b i) = ix2 (0 : Fin 1) i :=
  funext fun a => Fin.ext (by match a with | ⟨0, _⟩ => rfl | ⟨1, _⟩ => rfl)

/-- The reference's phase stage at `(b, h)`. -/
theorem phase_stage (x0 : S4096x2048.Idx → EReal) (x1 : S2048x2048.Idx → EReal) (b : Fin 4096) (h : Fin 2048) :
    val_main_v0 (F := Ideal) x0 x1 (ix2 b h) = phase x0 x1 b h := by
  rw [val_main_v0_apply]
  unfold phase phaseTerm
  refine Finset.sum_congr rfl fun k _ => ?_
  rw [lidx0, ridx0]

/-- The reference's result stage is the specification. -/
theorem result_stage (x0 : S4096x2048.Idx → EReal) (x1 : S2048x2048.Idx → EReal) (x2 x3 : S1x2048x2048.Idx → EReal)
    (x4 : S1x2048.Idx → EReal) :
    val_main_v11 (F := Ideal) x0 x1 x2 x3 x4
      = out x0 x1 (shapeCast S2048x2048 x2 Facts₀.shapeCasts_S1x2048x2048_S2048x2048)
          (shapeCast S2048x2048 x3 Facts₀.shapeCasts_S1x2048x2048_S2048x2048) x4 := by
  funext j
  obtain ⟨b, i, rfl⟩ : ∃ (b : Fin 4096) (i : Fin 2048), j = ix2 b i := ⟨j 0, j 1, eq_ix2 j⟩
  rw [val_main_v11_apply, val_main_v7_apply, val_main_v3_apply, val_main_v6_apply, val_main_v10_apply, val_main_v9_apply,
    val_main_v8_apply, val_main_cst_apply, idx10]
  unfold out cosTerm sinTerm biasTerm
  refine congrArg₂ (· + ·) (congrArg₂ (· + ·) ?_ ?_) rfl
  · refine Finset.sum_congr rfl fun h _ => ?_
    rw [lidx3, ridx3, val_main_v1_apply, phase_stage]
    rfl
  · refine Finset.sum_congr rfl fun h _ => ?_
    rw [lidx6, ridx6, val_main_v4_apply, phase_stage]
    rfl

end Cert.ReferenceIdeal.RefValue

end
-- ==== Proof.lean ====
/-
  The certificate of the fused Fourier-series kernel against its jnp reference.

  Both programs compute, for a row b and a column i,
      (∑ h, cos (phase b h) · an (i, h) + ∑ h, sin (phase b h) · bn (i, h)) + 2048 · bias (0, i),
      phase b h = ∑ k, x (b, k) · coeff (k, h).
  The kernel forms the phase in four tiles of 512 terms added to a zero accumulator, keeps its cosine and sine in
  scratch across the grid points of a row block, and accumulates the two gain sums tile by tile, interleaved, into one
  block before adding the scaled bias; the reference forms each sum whole.  On the extended reals the two agree
  because addition is commutative and associative — no input need be finite for that.

  The three frames are the generated frame runs (the reference's its generated run with the result dropped); the
  idealization rewrote nothing, so `preserves` is trivial; `algebraic` sets the kernel's run, read as the
  specification of the arguments, beside the reference's run read stage by stage as the same specification.
-/
import proofs.«166430_j84696755077155_2_alg».proof.Defs
import proofs.«166430_j84696755077155_2_alg».proof.Proof.Gen.Kernel
import proofs.«166430_j84696755077155_2_alg».proof.Proof.Gen.Kernel.Skeleton
import proofs.«166430_j84696755077155_2_alg».proof.Proof.Gen.Kernel.Launch
import proofs.«166430_j84696755077155_2_alg».proof.Proof.Gen.Kernel.Points
import proofs.«166430_j84696755077155_2_alg».proof.Proof.Gen.Kernel.Frame
import proofs.«166430_j84696755077155_2_alg».proof.Proof.Gen.KernelIdeal
import proofs.«166430_j84696755077155_2_alg».proof.Proof.Gen.KernelIdeal.Skeleton
import proofs.«166430_j84696755077155_2_alg».proof.Proof.Gen.KernelIdeal.Launch
import proofs.«166430_j84696755077155_2_alg».proof.Proof.Gen.KernelIdeal.Points
import proofs.«166430_j84696755077155_2_alg».proof.Proof.Gen.KernelIdeal.Frame
import proofs.«166430_j84696755077155_2_alg».proof.Proof.Gen.ReferenceIdeal
import proofs.«166430_j84696755077155_2_alg».proof.Proof.Gen.Pre_finite_inputs
import proofs.«166430_j84696755077155_2_alg».proof.Proof.Gen.KernelIdeal.Value
import proofs.«166430_j84696755077155_2_alg».proof.Proof.Gen.ReferenceIdeal.Run
import proofs.«166430_j84696755077155_2_alg».proof.Proof.Gen.ReferenceIdeal.Read
import proofs.«166430_j84696755077155_2_alg».proof.Proof.Result
import proofs.«166430_j84696755077155_2_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the kernel ends with its result array at the specification of
    its arguments and the reference with its result at the specification of its own: the same array. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_stage, (hagree c).1, (hagree c).2.1,
    (hagree c).2.2.1, (hagree c).2.2.2.1, (hagree c).2.2.2.2]
  exact (Cert.KernelIdeal.Result.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
